-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S1x4096x64 : Shape := ⟨3, ![1, 4096, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1x4096x64 : S_.BroadcastsInDim S1x4096x64 (![] : Fin 0 → Fin S1x4096x64.rank)
  reducesTo_S1x4096x64_S_d0_1_2 : S1x4096x64.ReducesTo [0, 1, 2] S_

variable [Facts]

def fn {F : FTy → Type} [FloatOps F] (main_arg0 : FVec F S16384x64 .f32) (main_arg1 : FVec F S1x4096x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1x4096x64 .f32 := Host.absf main_arg1
  let main_cst_0 : FVec F S_ .f32 := constant S_ .f32 0x7F800000#32
  let main_v5 : FVec F S1x4096x64 .f32 := broadcastInDim S1x4096x64 ![] bcast_S_S1x4096x64 main_cst_0
  let main_v6 : IVec S1x4096x64 1 := cmpf .olt main_v4 main_v5
  let main_c_1 : IVec S_ 1 := constantI S_ 1 1#1
  let main_v7 : IVec S_ 1 := (fun x v => Host.reduce IntOp.andi x v reducesTo_S1x4096x64_S_d0_1_2 h_S_) main_v6 main_c_1
  let main_v8 : IVec S_ 1 := andi main_v3 main_v7
  main_v8
-- ==== Kernel.lean ====
abbrev S16384x64 : Shape := ⟨2, ![16384, 64]⟩
abbrev S1x4096x64 : Shape := ⟨3, ![1, 4096, 64]⟩
abbrev S4096x64 : Shape := ⟨2, ![4096, 64]⟩
abbrev S16384x4096 : Shape := ⟨2, ![16384, 4096]⟩
abbrev S1024x64 : Shape := ⟨2, ![1024, 64]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩

abbrev nBuf : Space → Nat
  | .hbm => 4
  | .vmem => 5
  | .smem => 0
  | _ => 0

abbrev bufTy : (tb : Table) → Fin (tcTables nBuf tb) → BufTy
  | .hbm, ⟨0, _⟩ => ⟨S16384x64, .f32⟩
  | .hbm, ⟨1, _⟩ => ⟨S1x4096x64, .f32⟩
  | .hbm, ⟨2, _⟩ => ⟨S4096x64, .f32⟩
  | .hbm, ⟨3, _⟩ => ⟨S16384x4096, .f32⟩
  | .local _ .vmem, ⟨0, _⟩ => ⟨S1024x64, .f32⟩
  | .local _ .vmem, ⟨1, _⟩ => ⟨S1024x64, .f32⟩
  | .local _ .vmem, ⟨2, _⟩ => ⟨S4096x64, .f32⟩
  | .local _ .vmem, ⟨3, _⟩ => ⟨S1024x4096, .f32⟩
  | .local _ .vmem, ⟨4, _⟩ => ⟨S1024x4096, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x4096x64_S4096x64 : S1x4096x64.ShapeCasts S4096x64
  inb_S1024x64_S1024x64_0_0 : ∀ a, (![0, 0] : Fin 2 → Nat) a + S1024x64.size a ≤ S1024x64.size a
  h_S1024x64 : 0 < S1024x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S1024x64_S1024 : S1024x64.Reduces [1] S1024
  shapeCasts_S1024_S1024x1 : S1024.ShapeCasts S1024x1
  reduces_S4096x64_S4096 : S4096x64.Reduces [1] S4096
  shapeCasts_S4096_S1x4096 : S4096.ShapeCasts S1x4096
  broadcasts_S1024x1_S1024x4096 : S1024x1.Broadcasts S1024x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  dot_S1024x64_S4096x64_S1024x4096_1_1_0_0_n_n_wf : DotDims.WF S1024x64 S4096x64 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S16384x4096.size a
  hwx0_2 : ∀ i : grid0.Coords, EltTy.bits .f32 = 32 ∨ (Rect.block (s := S16384x4096) S1024x4096.size (cc0_transform_2 i) (hinb0_2 i)).WholeWords (EltTy.packing .f32)

variable [Facts₀]

def dot_S1024x64_S4096x64_S1024x4096_1_1_0_0_n_n : DotDims S1024x64 S4096x64 S1024x4096 where
  lhsContracting := [1]
  rhsContracting := [1]
  lhsNonContracting := [0]
  rhsNonContracting := [0]
  lhsBatch := []
  rhsBatch := []
  wf := dot_S1024x64_S4096x64_S1024x4096_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S1x4096x64 : Shape := ⟨3, ![1, 4096, 64]⟩
abbrev S4096x64 : Shape := ⟨2, ![4096, 64]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1x4096x64, .f32⟩
  | .hbm, ⟨2, _⟩ => ⟨S4096x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S1x4096x64_S4096x64 : S1x4096x64.ShapeCasts S4096x64
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S1x4096_1 : S4096.BroadcastsInDim S1x4096 (![1] : Fin 1 → Fin S1x4096.rank)
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  dot_S16384x64_S4096x64_S16384x4096_1_1_0_0_n_n_wf : DotDims.WF S16384x64 S4096x64 S16384x4096 [1] [1] [0] [0] [] []

variable [Facts₀]

def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf

class Facts : Prop extends Facts₀ where

variable [Facts]
-- ==== Proof.LibPlainDot.lean ====
/-
  Indices of a plain matrix product, built from an output index and a shared coordinate.

  For an M×K matrix times a K×N matrix, entry (r, c) of the product is the sum over k of l (r, k) · r (k, c).
  `lhsAt i k` is the left operand's index (i 0, k), `rhsAt i k` the right operand's (k, i 1), and `rowAt i` is
  (0, i 1): where a one-row matrix added to every row is read.
-/
import Idealize.ShloMosaic.Lib.ValueIdx

namespace Idealize.ShloMosaic.PlainDot

open Idealize.ShloMosaic

/-- The left operand's index for output index `i` and shared coordinate `k`: (i 0, k). -/
abbrev lhsAt {M K N : Nat} (i : (⟨2, ![M, N]⟩ : Shape).Idx) (k : Fin K) : (⟨2, ![M, K]⟩ : Shape).Idx :=
  fun a => match a with
  | ⟨0, _⟩ => ⟨(i 0).val, (i 0).isLt⟩
  | ⟨1, _⟩ => ⟨k.val, k.isLt⟩

/-- The right operand's index: (k, i 1). -/
abbrev rhsAt {M K N : Nat} (i : (⟨2, ![M, N]⟩ : Shape).Idx) (k : Fin K) : (⟨2, ![K, N]⟩ : Shape).Idx :=
  fun a => match a with
  | ⟨0, _⟩ => ⟨k.val, k.isLt⟩
  | ⟨1, _⟩ => ⟨(i 1).val, (i 1).isLt⟩

/-- Column `i 1` of a one-row matrix: (0, i 1). -/
abbrev rowAt {M N : Nat} (i : (⟨2, ![M, N]⟩ : Shape).Idx) : (⟨2, ![1, N]⟩ : Shape).Idx :=
  fun a => match a with
  | ⟨0, _⟩ => ⟨0, Nat.one_pos⟩
  | ⟨1, _⟩ => ⟨(i 1).val, (i 1).isLt⟩

end Idealize.ShloMosaic.PlainDot
-- ==== Proof.LibRowForms.lean ====
/-
  Rows, columns and a plain matrix product, read at an index.

  A column is an [a, 1] array and a row a [1, b] array. Scaling every row of a matrix by its own factor
  multiplies entry (p, q) by the column's entry (p, 0); adding one row to every row adds the row's entry (0, q).
  A product of an M×K by a K×N matrix has, at (r, c), the sum over k of l (r, k) · r (k, c), whatever record
  spells the contraction, provided the record's operand indices have those coordinates.
-/
import Idealize.ShloMosaic.Lib.ValueIdx
import Idealize.ShloMosaic.Lib.ValueLayout
import Idealize.ShloMosaic.Lib.Pipeline.Value
import Idealize.ShloMosaic.PureOps.Ideal.Laws
import proofs.«132592_j54099408060818_2_alg».proof.Proof.LibPlainDot

noncomputable section

open scoped BigOperators

namespace Idealize.ShloMosaic.PlainDot

open Idealize.ShloMosaic Idealize.ShloMosaic.ValueIdx

variable {α : Type}

/-- Row `i 0` of a one-column matrix: (i 0, 0). -/
abbrev colAt {M N : Nat} (i : (⟨2, ![M, N]⟩ : Shape).Idx) : (⟨2, ![M, 1]⟩ : Shape).Idx :=
  fun a => match a with
  | ⟨0, _⟩ => ⟨(i 0).val, (i 0).isLt⟩
  | ⟨1, _⟩ => ⟨0, Nat.one_pos⟩

/-- An [a, 1] column broadcast to [a, b] reads, at `j`, the column's entry in `j`'s row. -/
theorem broadcastTo_col_apply {a b : ℕ} (v : (⟨2, ![a, 1]⟩ : Shape).Idx → α) (h : (⟨2, ![a, 1]⟩ : Shape).Broadcasts ⟨2, ![a, b]⟩)
    (j : (⟨2, ![a, b]⟩ : Shape).Idx) : broadcastTo ⟨2, ![a, b]⟩ v h j = v (colAt j) := by
  refine broadcastTo_apply v h j (colAt j) fun ax => ?_
  match ax with
  | ⟨0, _⟩ =>
    show (j 0).val = if a = 1 then 0 else (j 0).val
    split
    · have := (j 0).isLt
      have h0 : (j 0).val < a := this
      omega
    · rfl
  | ⟨1, _⟩ => rfl

/-- A [1, b] row broadcast to [a, b] reads, at `j`, the row's entry in `j`'s column. -/
theorem broadcastTo_row_apply {a b : ℕ} (v : (⟨2, ![1, b]⟩ : Shape).Idx → α) (h : (⟨2, ![1, b]⟩ : Shape).Broadcasts ⟨2, ![a, b]⟩)
    (j : (⟨2, ![a, b]⟩ : Shape).Idx) : broadcastTo ⟨2, ![a, b]⟩ v h j = v (rowAt j) := by
  refine broadcastTo_apply v h j (rowAt j) fun ax => ?_
  match ax with
  | ⟨0, _⟩ => rfl
  | ⟨1, _⟩ =>
    show (j 1).val = if b = 1 then 0 else (j 1).val
    split
    · have := (j 1).isLt
      have h1 : (j 1).val < b := this
      omega
    · rfl

/-- An [a] vector cast to an [a, 1] column reads, at `j`, the vector at `j`'s row. -/
theorem shapeCast_keepdims_apply {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 ⟨(j 0).val, (j 0).isLt⟩) :=
  shapeCast_apply x h _ _ (by
    rw [Shape.rowMajor_val_two, Shape.rowMajor_val_one]
    have h1 : (j 1).val < 1 := (j 1).isLt
    show (j 0).val = (j 0).val * 1 + (j 1).val
    omega)

/-- The sum a plain product contracts over, re-indexed by the shared coordinate: for a record `D` whose one contracted
    axis has extent `K` and whose operand indices at output index `i` and contraction index `q` are (i 0, q) and (q, i 1). -/
theorem sum_contr_eq {M K N : ℕ} (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : (⟨2, ![M, K]⟩ : Shape).Idx → EReal) (r : (⟨2, ![K, N]⟩ : Shape).Idx → EReal) (i : (⟨2, ![M, N]⟩ : Shape).Idx) :
    ∑ q : D.contr.Idx, l (D.lhsIdx i q) * r (D.rhsIdx i q) = ∑ k : Fin K, l (lhsAt i k) * r (rhsAt i k) := by
  rw [← Equiv.sum_comp (contrEquiv1 D K hr hs).symm]
  refine Finset.sum_congr rfl fun k _ => ?_
  have hk := contrEquiv1_symm_val D K hr hs k
  have el : D.lhsIdx i ((contrEquiv1 D K hr hs).symm k) = lhsAt i k := funext fun a => Fin.ext (by
    match a with
    | ⟨0, _⟩ => exact hl0 _ _
    | ⟨1, _⟩ => exact (hl1 _ _).trans hk)
  have er : D.rhsIdx i ((contrEquiv1 D K hr hs).symm k) = rhsAt i k := funext fun a => Fin.ext (by
    match a with
    | ⟨0, _⟩ => exact (hr0 _ _).trans hk
    | ⟨1, _⟩ => exact hr1 _ _)
  rw [el, er]

/-! ## The host's `broadcast_in_dim` of a column, a row and a vector -/

/-- An [a, 1] column placed on both axes of [a, b] reads, at `j`, the column's entry in `j`'s row. -/
theorem broadcastInDim_col_apply {a b : ℕ} (h : (⟨2, ![a, 1]⟩ : Shape).BroadcastsInDim ⟨2, ![a, b]⟩ ![0, 1])
    (v : (⟨2, ![a, 1]⟩ : Shape).Idx → α) (j : (⟨2, ![a, b]⟩ : Shape).Idx) :
    broadcastInDim ⟨2, ![a, b]⟩ ![0, 1] h v j = v (colAt j) := by
  refine broadcastInDim_apply _ h v j (colAt j) fun ax => ?_
  match ax with
  | ⟨0, _⟩ =>
    show (j 0).val = if a = 1 then 0 else (j 0).val
    split
    · have h0 : (j 0).val < a := (j 0).isLt
      omega
    · rfl
  | ⟨1, _⟩ =>
    show 0 = if (1 : Nat) = 1 then 0 else (j 1).val
    rw [if_pos rfl]

/-- A [1, b] row placed on both axes of [a, b] reads, at `j`, the row's entry in `j`'s column. -/
theorem broadcastInDim_row_apply {a b : ℕ} (h : (⟨2, ![1, b]⟩ : Shape).BroadcastsInDim ⟨2, ![a, b]⟩ ![0, 1])
    (v : (⟨2, ![1, b]⟩ : Shape).Idx → α) (j : (⟨2, ![a, b]⟩ : Shape).Idx) :
    broadcastInDim ⟨2, ![a, b]⟩ ![0, 1] h v j = v (rowAt j) := by
  refine broadcastInDim_apply _ h v j (rowAt j) fun ax => ?_
  match ax with
  | ⟨0, _⟩ =>
    show 0 = if (1 : Nat) = 1 then 0 else (j 0).val
    rw [if_pos rfl]
  | ⟨1, _⟩ =>
    show (j 1).val = if b = 1 then 0 else (j 1).val
    split
    · have h1 : (j 1).val < b := (j 1).isLt
      omega
    · rfl

/-- An [a] vector placed on axis 0 of an [a, 1] column reads, at `j`, the vector at `j`'s row. -/
theorem broadcastInDim_keepdims_apply {a : ℕ} (h : (⟨1, ![a]⟩ : Shape).BroadcastsInDim ⟨2, ![a, 1]⟩ ![0])
    (v : (⟨1, ![a]⟩ : Shape).Idx → α) (j : (⟨2, ![a, 1]⟩ : Shape).Idx) :
    broadcastInDim ⟨2, ![a, 1]⟩ ![0] h v j = v (ix1 ⟨(j 0).val, (j 0).isLt⟩) := by
  refine broadcastInDim_apply _ h v j (ix1 ⟨(j 0).val, (j 0).isLt⟩) fun ax => ?_
  match ax with
  | ⟨0, _⟩ =>
    show (j 0).val = if a = 1 then 0 else (j 0).val
    split
    · have h0 : (j 0).val < a := (j 0).isLt
      omega
    · rfl

/-- A [b] vector placed on axis 1 of a [1, b] row reads, at `j`, the vector at `j`'s column. -/
theorem broadcastInDim_rowvec_apply {b : ℕ} (h : (⟨1, ![b]⟩ : Shape).BroadcastsInDim ⟨2, ![1, b]⟩ ![1])
    (v : (⟨1, ![b]⟩ : Shape).Idx → α) (j : (⟨2, ![1, b]⟩ : Shape).Idx) :
    broadcastInDim ⟨2, ![1, b]⟩ ![1] h v j = v (ix1 ⟨(j 1).val, (j 1).isLt⟩) := by
  refine broadcastInDim_apply _ h v j (ix1 ⟨(j 1).val, (j 1).isLt⟩) fun ax => ?_
  match ax with
  | ⟨0, _⟩ =>
    show (j 1).val = if b = 1 then 0 else (j 1).val
    split
    · have h1 : (j 1).val < b := (j 1).isLt
      omega
    · rfl

/-- A [b] vector cast to a [1, b] row reads, at `j`, the vector at `j`'s column. -/
theorem shapeCast_rowvec_apply {b : ℕ} (x : (⟨1, ![b]⟩ : Shape).Idx → α) (h : (⟨1, ![b]⟩ : Shape).ShapeCasts ⟨2, ![1, b]⟩)
    (j : (⟨2, ![1, b]⟩ : Shape).Idx) : shapeCast ⟨2, ![1, b]⟩ x h j = x (ix1 ⟨(j 1).val, (j 1).isLt⟩) :=
  shapeCast_apply x h _ _ (by
    rw [Shape.rowMajor_val_two, Shape.rowMajor_val_one]
    have h0 : (j 0).val < 1 := (j 0).isLt
    show (j 1).val = (j 0).val * b + (j 1).val
    have : (j 0).val = 0 := by omega
    rw [this, Nat.zero_mul, Nat.zero_add])

/-! ## Three layer shapes, entry by entry -/

/-- Rows scaled by a column, then a matrix product: entry (r, c) is the sum over k of (X (r, k) · s (r, 0)) · W (k, c). -/
def scaleDot {M K N : ℕ} (X : (⟨2, ![M, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (X (lhsAt i k) * s (colAt i)) * W (rhsAt i k)

/-- One activated entry: the aggregate scaled by its row's factor, plus the bias of its column, floored at `z`. -/
def actAt {M K : ℕ} (z : EReal) (A : (⟨2, ![M, K]⟩ : Shape).Idx → EReal) (d : (⟨2, ![M, 1]⟩ : Shape).Idx → EReal)
    (b : (⟨2, ![1, K]⟩ : Shape).Idx → EReal) (i : (⟨2, ![M, K]⟩ : Shape).Idx) : EReal :=
  max (A i * d (colAt i) + b (rowAt i)) z

/-- Activated rows scaled by a second column, then a matrix product. -/
def actScaleDot {M K N : ℕ} (z : EReal) (A : (⟨2, ![M, K]⟩ : Shape).Idx → EReal) (d : (⟨2, ![M, 1]⟩ : Shape).Idx → EReal)
    (b : (⟨2, ![1, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (actAt z A d b (lhsAt i k) * s (colAt i)) * W (rhsAt i k)

/-- Activated rows times a matrix, plus one row added to every row. -/
def actDotBias {M K N : ℕ} (z : EReal) (A : (⟨2, ![M, K]⟩ : Shape).Idx → EReal) (d : (⟨2, ![M, 1]⟩ : Shape).Idx → EReal)
    (b : (⟨2, ![1, K]⟩ : Shape).Idx → EReal) (W : (⟨2, ![K, N]⟩ : Shape).Idx → EReal)
    (o : (⟨2, ![1, N]⟩ : Shape).Idx → EReal) : (⟨2, ![M, N]⟩ : Shape).Idx → EReal :=
  fun i => (∑ k : Fin K, actAt z A d b (lhsAt i k) * W (rhsAt i k)) + o (rowAt i)

end Idealize.ShloMosaic.PlainDot

end
-- ==== Proof.LibSumReduce.lean ====
/-
  A vector sum over one axis on the extended reals, with the accumulator hypothesis spelt as a printed program carries
  it (the zero pattern equal to itself): the sum over that axis's coordinates.
-/
import Idealize.ShloMosaic.PureOps.Ideal.Laws

namespace Idealize.ShloMosaic.Ideal

theorem multiReduction_add_single' {s t : Shape} {a : Fin s.rank} (src : FVec Ideal s .f32)
    (h : s.Reduces [a] t) (hφ : FKind.Formats .f32) (hacc : (0x00000000#32 : BitVec 32) = 0x00000000#32) (j : t.Idx) :
    multiReduction .add [a] t src 0x00000000#32 h hφ hacc j = ∑ k : Fin (s.size a), src (h.lift j k) :=
  multiReduction_add_single src _ h hφ hacc j

end Idealize.ShloMosaic.Ideal
-- ==== Proof.LibSqDist.lean ====
/-
  Squared Euclidean distances between the rows of two matrices, entry by entry.

  For x with M rows and w with N rows, each of K entries, the expansion ‖a − b‖² = ‖a‖² − 2⟨a, b⟩ + ‖b‖² gives at (r, p)
      (∑ₖ x(r,k)·x(r,k)  −  c · ∑ₖ x(r,k)·w(p,k))  +  ∑ₖ w(p,k)·w(p,k),
  with the factor c of the cross term a parameter. `sqDist` is that function, in this grouping. Entry (r, p) reads row r
  of x and row p of w and nothing else, so the entries over a block of rows of x are the entries of the block
  (`sqDist_of_rows`). The cross term is a matrix product that contracts the LAST axis of both operands; `sum_contr_rows_eq`
  reads such a product's contraction as the sum over the shared coordinate k of l (r, k) · r (p, k), whatever record spells
  the contraction, provided the record's operand indices have those coordinates.
-/
import Idealize.ShloMosaic.Lib.ValueIdx
import Idealize.ShloMosaic.PureOps.Ideal.Laws
import proofs.«132592_j54099408060818_2_alg».proof.Proof.LibPlainDot

noncomputable section

open scoped BigOperators

namespace Idealize.ShloMosaic.PlainDot

open Idealize.ShloMosaic Idealize.ShloMosaic.ValueIdx

/-- The index (i 1, k): row `i 1` of an N×K matrix at the shared coordinate `k`. -/
abbrev rhsRowAt {M K N : Nat} (i : (⟨2, ![M, N]⟩ : Shape).Idx) (k : Fin K) : (⟨2, ![N, K]⟩ : Shape).Idx :=
  fun a => match a with
  | ⟨0, _⟩ => ⟨(i 1).val, (i 1).isLt⟩
  | ⟨1, _⟩ => ⟨k.val, k.isLt⟩

/-- The sum a product of an M×K by an N×K matrix contracts over (the last axis of both), re-indexed by the shared
    coordinate: for a record `D` whose one contracted axis has extent `K` and whose operand indices at output index `i`
    and contraction index `q` are (i 0, q) and (i 1, q). -/
theorem sum_contr_rows_eq {M K N : ℕ} (D : DotDims ⟨2, ![M, K]⟩ ⟨2, ![N, K]⟩ ⟨2, ![M, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = ∑ k : Fin K, l (lhsAt i k) * r (rhsRowAt i k) := by
  rw [← Equiv.sum_comp (contrEquiv1 D K hr hs).symm]
  refine Finset.sum_congr rfl fun k _ => ?_
  have hk := contrEquiv1_symm_val D K hr hs k
  have el : D.lhsIdx i ((contrEquiv1 D K hr hs).symm k) = lhsAt i k := funext fun a => Fin.ext (by
    match a with
    | ⟨0, _⟩ => exact hl0 _ _
    | ⟨1, _⟩ => exact (hl1 _ _).trans hk)
  have er : D.rhsIdx i ((contrEquiv1 D K hr hs).symm k) = rhsRowAt i k := funext fun a => Fin.ext (by
    match a with
    | ⟨0, _⟩ => exact hr0 _ _
    | ⟨1, _⟩ => exact (hr1 _ _).trans hk)
  rw [el, er]

/-- The squared distances between the rows of `x` and the rows of `w`, by the expanded square: at (r, p) the squared norm
    of row r of `x`, minus `c` times the inner product of the two rows, plus the squared norm of row p of `w`. -/
def sqDist {M N K : ℕ} (c : EReal) (x : (⟨2, ![M, K]⟩ : Shape).Idx → EReal) (w : (⟨2, ![N, K]⟩ : Shape).Idx → EReal) :
    (⟨2, ![M, N]⟩ : Shape).Idx → EReal :=
  fun i => ((∑ k : Fin K, x (lhsAt i k) * x (lhsAt i k)) - c * ∑ k : Fin K, x (lhsAt i k) * w (rhsRowAt i k))
    + ∑ k : Fin K, w (rhsRowAt i k) * w (rhsRowAt i k)

/-- Entry `y` of the distances between the rows of `xb` and of `wb` is entry `i` of the distances between the rows of `x`
    and of `w` when row `y 0` of `xb` is row `i 0` of `x` and row `y 1` of `wb` is row `i 1` of `w`: an entry reads those two
    rows and nothing else. -/
theorem sqDist_of_rows {M B N C K : ℕ} (c : EReal) (x : (⟨2, ![M, K]⟩ : Shape).Idx → EReal)
    (xb : (⟨2, ![B, K]⟩ : Shape).Idx → EReal) (w : (⟨2, ![N, K]⟩ : Shape).Idx → EReal)
    (wb : (⟨2, ![C, K]⟩ : Shape).Idx → EReal) (i : (⟨2, ![M, N]⟩ : Shape).Idx) (y : (⟨2, ![B, C]⟩ : Shape).Idx)
    (hx : ∀ k : Fin K, xb (lhsAt y k) = x (lhsAt i k)) (hw : ∀ k : Fin K, wb (rhsRowAt y k) = w (rhsRowAt i k)) :
    sqDist c xb wb y = sqDist c x w i := by
  unfold sqDist
  simp only [hx, hw]

end Idealize.ShloMosaic.PlainDot

end
-- ==== Proof.BodyDist.lean ====
/-
  What the kernel's body computes from one block of x and the whole prototype table.

  The body loads a block of 1024 rows of x and all 4096 rows of the table, sums the squares along each row of both
  (a column of 1024 norms, a row of 4096 norms), contracts the last axis of both in one matrix product into a zero
  accumulator, and stores (column − 2 · product) + row. Read at an index (r, p) of the block each piece is a sum over
  the 64 shared coordinates, and the stored value is `sqDist` of the two loaded arrays at (r, p).
-/
import proofs.«132592_j54099408060818_2_alg».proof.Proof.Gen.KernelIdeal.Skeleton
import proofs.«132592_j54099408060818_2_alg».proof.Proof.LibRowForms
import proofs.«132592_j54099408060818_2_alg».proof.Proof.LibSumReduce
import proofs.«132592_j54099408060818_2_alg».proof.Proof.LibSqDist

noncomputable section

namespace Cert.KernelIdeal.Body

open Cert.KernelIdeal Cert.KernelIdeal.Gen
open Idealize.ShloMosaic Idealize.ShloMosaic.PlainDot Idealize.ShloMosaic.ValueIdx

/-! ## The product's operand indices: (r, k) and (p, k) -/

theorem lhs0 (i : S1024x4096.Idx) (q : dot_S1024x64_S4096x64_S1024x4096_1_1_0_0_n_n.contr.Idx) : (dot_S1024x64_S4096x64_S1024x4096_1_1_0_0_n_n.lhsIdx i q 0).val = (i 0).val := by
  unfold DotDims.lhsIdx
  rw [dif_neg (show ¬(0 : Fin S1024x64.rank) ∈ dot_S1024x64_S4096x64_S1024x4096_1_1_0_0_n_n.lhsBatch by decide),
    dif_pos (show (0 : Fin S1024x64.rank) ∈ dot_S1024x64_S4096x64_S1024x4096_1_1_0_0_n_n.lhsNonContracting by decide)]
  rfl

theorem lhs1 (i : S1024x4096.Idx) (q : dot_S1024x64_S4096x64_S1024x4096_1_1_0_0_n_n.contr.Idx) : (dot_S1024x64_S4096x64_S1024x4096_1_1_0_0_n_n.lhsIdx i q 1).val = (q ⟨0, by decide⟩).val :=
  dot_S1024x64_S4096x64_S1024x4096_1_1_0_0_n_n.lhsIdx_val_of_single rfl i q

theorem rhs0 (i : S1024x4096.Idx) (q : dot_S1024x64_S4096x64_S1024x4096_1_1_0_0_n_n.contr.Idx) : (dot_S1024x64_S4096x64_S1024x4096_1_1_0_0_n_n.rhsIdx i q 0).val = (i 1).val := by
  unfold DotDims.rhsIdx
  rw [dif_neg (show ¬(0 : Fin S4096x64.rank) ∈ dot_S1024x64_S4096x64_S1024x4096_1_1_0_0_n_n.rhsBatch by decide),
    dif_pos (show (0 : Fin S4096x64.rank) ∈ dot_S1024x64_S4096x64_S1024x4096_1_1_0_0_n_n.rhsNonContracting by decide)]
  rfl

theorem rhs1 (i : S1024x4096.Idx) (q : dot_S1024x64_S4096x64_S1024x4096_1_1_0_0_n_n.contr.Idx) : (dot_S1024x64_S4096x64_S1024x4096_1_1_0_0_n_n.rhsIdx i q 1).val = (q ⟨0, by decide⟩).val :=
  dot_S1024x64_S4096x64_S1024x4096_1_1_0_0_n_n.rhsIdx_val_of_single rfl i q

/-! ## The three pieces at an index -/

/-- The column of row norms of the x block, spread over the columns: at (r, p) the sum of the squares of row r. -/
theorem xnorm_apply (v : FVec Ideal S1024x64 .f32) (j : S1024x4096.Idx) :
    broadcastTo S1024x4096 (shapeCast S1024x1 (multiReduction .add [1] S1024 (mulf v v) 0x00000000#32 reduces_S1024x64_S1024 (.inl rfl) rfl)
        shapeCasts_S1024_S1024x1) broadcasts_S1024x1_S1024x4096 j
      = ∑ k : Fin 64, v (lhsAt j k) * v (lhsAt j k) := by
  refine (broadcastTo_col_apply _ broadcasts_S1024x1_S1024x4096 j).trans ?_
  refine (shapeCast_keepdims_apply _ shapeCasts_S1024_S1024x1 (colAt j)).trans ?_
  refine (Ideal.multiReduction_add_single' (mulf v v) reduces_S1024x64_S1024 (.inl rfl) rfl _).trans ?_
  refine Finset.sum_congr rfl fun k _ => ?_
  exact congrArg (fun t => v t * v t) (funext fun a => Fin.ext (by
    match a with
    | ⟨0, _⟩ => rfl
    | ⟨1, _⟩ => rfl))

/-- The row of row norms of the table, spread over the rows: at (r, p) the sum of the squares of the table's row p. -/
theorem wnorm_apply (v : FVec Ideal S4096x64 .f32) (j : S1024x4096.Idx) :
    broadcastTo S1024x4096 (shapeCast S1x4096 (multiReduction .add [1] S4096 (mulf v v) 0x00000000#32 reduces_S4096x64_S4096 (.inl rfl) rfl)
        shapeCasts_S4096_S1x4096) broadcasts_S1x4096_S1024x4096 j
      = ∑ k : Fin 64, v (rhsRowAt j k) * v (rhsRowAt j k) := by
  refine (broadcastTo_row_apply _ broadcasts_S1x4096_S1024x4096 j).trans ?_
  refine (shapeCast_rowvec_apply _ shapeCasts_S4096_S1x4096 (rowAt j)).trans ?_
  refine (Ideal.multiReduction_add_single' (mulf v v) reduces_S4096x64_S4096 (.inl rfl) rfl _).trans ?_
  refine Finset.sum_congr rfl fun k _ => ?_
  exact congrArg (fun t => v t * v t) (funext fun a => Fin.ext (by
    match a with
    | ⟨0, _⟩ => rfl
    | ⟨1, _⟩ => rfl))

/-- The product into the zero accumulator: at (r, p) the inner product of row r of the block and row p of the table. -/
theorem cross_apply (v0 : FVec Ideal S1024x64 .f32) (v1 : FVec Ideal S4096x64 .f32) (j : S1024x4096.Idx) :
    matmul dot_S1024x64_S4096x64_S1024x4096_1_1_0_0_n_n (some .fp32) v0 v1 (constant (F := Ideal) S1024x4096 .f32 0x00000000#32) j
      = ∑ k : Fin 64, v0 (lhsAt j k) * v1 (rhsRowAt j k) := by
  refine (Ideal.matmul_constant_zero_apply dot_S1024x64_S4096x64_S1024x4096_1_1_0_0_n_n (some .fp32) v0 v1 j).trans ?_
  exact sum_contr_rows_eq dot_S1024x64_S4096x64_S1024x4096_1_1_0_0_n_n rfl rfl lhs0 lhs1 rhs0 rhs1 v0 v1 j

/-! ## The stored value -/

/-- The body's stored value is the squared-distance matrix of the loaded block and the loaded table, the cross term's
    factor the float 2. -/
theorem pay_eq (v0 : Vec Ideal S1024x64 .f32) (v1 : Vec Ideal S4096x64 .f32) :
    k0_pay1 (F := Ideal) v0 v1 = sqDist (M := 1024) (N := 4096) (K := 64) (Ideal.ofBits .f32 0x40000000#32) v0 v1 := by
  funext j
  unfold k0_pay1
  rw [shapeCast_self]
  refine (addf_apply _ _ j).trans ?_
  refine congrArg₂ (· + ·) ((subf_apply _ _ j).trans (congrArg₂ (· - ·) (xnorm_apply v0 j) ?_)) (wnorm_apply v1 j)
  refine (mulf_apply _ _ j).trans ?_
  exact congrArg (Ideal.ofBits .f32 0x40000000#32 * ·) (cross_apply v0 v1 j)

end Cert.KernelIdeal.Body

end
-- ==== Proof.ArrayDist.lean ====
/-
  From the blocks to the whole array: after the run the output holds the squared distances between the rows of x and
  the rows of the prototype table.

  The grid has 16 points. Point t stages rows 1024·t … 1024·t + 1023 of x and the whole table (which the program
  reshaped from W before the launch), and writes back rows 1024·t … 1024·t + 1023 of the output, all 4096 columns. An
  entry of the distance matrix reads one row of x and one row of the table, so what point t writes is block t of
  the distance matrix of the whole arrays; the 16 row blocks cover the output.
-/
import proofs.«132592_j54099408060818_2_alg».proof.Proof.Gen.KernelIdeal.Value
import proofs.«132592_j54099408060818_2_alg».proof.Proof.BodyDist
import Idealize.ShloMosaic.Lib.StableHlo.Run

noncomputable section

namespace Cert.KernelIdeal.Dist

open Cert.KernelIdeal Cert.KernelIdeal.Gen Idealize.ShloMosaic Idealize.ShloMosaic.TcCoe Idealize.SL.Sem
open Idealize.ShloMosaic.Pipeline (Dat)
open Idealize.ShloMosaic.PlainDot

variable (m : (ℓ : Loc nD τ sig) → Buf (Elt Ideal) ℓ) (ρ : Dev nD → PrngReg)

/-- The factor of the cross term: the float 2 as the programs carry it. -/
abbrev two : EReal := Ideal.ofBits .f32 0x40000000#32

theorem origin : (![0, 0] : Fin 2 → Nat) = fun _ => 0 := funext fun a => by fin_cases a <;> rfl

/-- The index maps over the grid: the x block moves with the output block along the rows, the table's block and
    every column block index stay at 0, and point t's output block is row block t. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- The table as the region finds it: W with its leading unit axis dropped. -/
theorem table_eq (c : Dev nD) :
    (V m c main_v0 : S4096x64.Idx → EReal)
      = shapeCast S4096x64 (m ((c : Thread nD τ).loc main_arg1)) shapeCasts_S1x4096x64_S4096x64 := by
  dsimp only [Gen.V, Gen.hostOps0]
  after_results
  rfl

/-- Entry y of the distances between point t's block of X and point t's block of the table is the entry of the whole
    distance matrix at y's place in the output. -/
theorem block_entry (X : S16384x64.Idx → EReal) (Wt : S4096x64.Idx → EReal) (t : Fin cfg0.N) (y : S1024x4096.Idx) :
    sqDist (M := 1024) (N := 4096) (K := 64) two (fun j => X (((cfg0.win 0).blk t).view.emb j)) (fun j => Wt (((cfg0.win 1).blk t).view.emb j)) y
      = sqDist (M := 16384) (N := 4096) (K := 64) two X Wt (((cfg0.win 2).blk t).view.emb y) := by
  obtain ⟨e0, e1, e2, e3, e4, e5⟩ := idx_facts t
  refine sqDist_of_rows two X _ Wt _ _ y (fun k => ?_) (fun k => ?_)
  · refine congrArg X (funext fun a => Fin.ext ?_)
    match a with
    | ⟨0, _⟩ =>
      show win0_0.index t (0 : Fin 2) * 1024 + 1 * (y 0).val = win0_2.index t (0 : Fin 2) * 1024 + 1 * (y 0).val
      omega
    | ⟨1, _⟩ =>
      show win0_0.index t (1 : Fin 2) * 64 + 1 * k.val = k.val
      omega
  · refine congrArg Wt (funext fun a => Fin.ext ?_)
    match a with
    | ⟨0, _⟩ =>
      show win0_1.index t (0 : Fin 2) * 4096 + 1 * (y 1).val = win0_2.index t (1 : Fin 2) * 4096 + 1 * (y 1).val
      omega
    | ⟨1, _⟩ =>
      show win0_1.index t (1 : Fin 2) * 64 + 1 * k.val = k.val
      omega

/-- What point t writes back is block t of the distance matrix of x and the table as the region finds them. -/
theorem flushed_eq (c : Dev nD) (t : Fin cfg0.N) :
    (dats m 0 c).flushed 2 t
      = ((cfg0.win 2).blk t).view.read (Elt Ideal) (sqDist (M := 16384) (N := 4096) (K := 64) two (V m c main_arg0) (V m c main_v0)) := by
  rw [Value.flushed2]
  unfold out0_2
  rw [View.canon_unit_zero origin]
  simp only [View.ld_unit_zero (S := S1024x64) origin, View.ld_unit_zero (S := S4096x64) origin]
  rw [Body.pay_eq]
  funext y
  exact block_entry (V m c main_arg0) (V m c main_v0) t y

/-- An index of the output is in point t's block iff each coordinate is in the block's range on its axis. -/
theorem mem_blk (t : Fin cfg0.N) (i : S16384x4096.Idx) :
    i ∈ ((cfg0.win 2).blk t).view.set ↔ ∀ a : Fin 2, win0_2.index t a * S1024x4096.size a ≤ (i a).val
      ∧ (i a).val < win0_2.index t a * S1024x4096.size a + S1024x4096.size a := by
  show i ∈ ((View.whole main_v1).slice (win0_2.rect t)).set ↔ _
  rw [View.set_slice_whole, Rect.mem_set_unit]
  exact Iff.rfl

/-- Every index of the output is in the block of the point that its row falls in: row r is in row block r / 1024. -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  have hN : grid0.N = 16 := N_0
  have ht : (i 0).val / 1024 < cfg0.N := by show (i 0).val / 1024 < grid0.N; omega
  obtain ⟨-, -, -, -, e4, e5⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    have e5' : win0_2.index ⟨(i 0).val / 1024, ht⟩ (0 : Fin 2) = (i 0).val / 1024 := e5
    omega
  | ⟨1, _⟩ =>
    show win0_2.index ⟨(i 0).val / 1024, ht⟩ (1 : Fin 2) * 4096 ≤ (i 1).val
      ∧ (i 1).val < win0_2.index ⟨(i 0).val / 1024, ht⟩ (1 : Fin 2) * 4096 + 4096
    omega

/-- The output array after the run: the distance matrix of x and the reshaped W as launched. -/
theorem final (c : Dev nD) :
    (dats m 0 c).arrAt 2 cfg0.N
      = sqDist (M := 16384) (N := 4096) (K := 64) two (m ((c : Thread nD τ).loc main_arg0))
          (shapeCast S4096x64 (m ((c : Thread nD τ).loc main_arg1)) shapeCasts_S1x4096x64_S4096x64) := by
  rw [← V_main_arg0 m c, ← table_eq m c]
  exact (dats m 0 c).arrAt_eq_of_cover 2 _ (fun t _ => flushed_eq m c t) cover

/-- The kernel's run, read: the output holds the distance matrix, the arguments are unchanged. -/
theorem run : θ_run defs (onTc (τ := τ) (main (F := Ideal))) ⟨m, fun _ => 0, ρ⟩ fun r => ∀ c : Dev nD,
      r.2.mem ((c : Thread nD τ).loc main_v1)
        = sqDist (M := 16384) (N := 4096) (K := 64) two (m ((c : Thread nD τ).loc main_arg0))
            (shapeCast S4096x64 (m ((c : Thread nD τ).loc main_arg1)) shapeCasts_S1x4096x64_S4096x64)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Dist

end
-- ==== Proof.RefDist.lean ====
/-
  The reference computes the squared distances between the rows of x and the rows of W.

  Its program squares x entry by entry and sums each row, does the same for the prototype table (the leading unit axis
  of W dropped by a reshape), contracts the last axis of both in one product, and combines the three:
  (row norm of x − 2 · product) + row norm of W. Read at an index (r, p) that is `sqDist` at (r, p) with the factor
  of the cross term the float 2; each sum starts from the float zero, which adds nothing.
-/
import proofs.«132592_j54099408060818_2_alg».proof.Proof.Gen.ReferenceIdeal.Read
import proofs.«132592_j54099408060818_2_alg».proof.Proof.LibSqDist

noncomputable section

namespace Cert.ReferenceIdeal.RefValue

open Cert.ReferenceIdeal Cert.ReferenceIdeal.Read Idealize.ShloMosaic Idealize.ShloMosaic.PlainDot

/-- The reference's result, as a function of its two arguments, is the squared-distance matrix of x and the reshaped W. -/
theorem result_eq (x0 : (⟨S16384x64, .f32⟩ : BufTy).Contents (Elt Ideal)) (x1 : (⟨S1x4096x64, .f32⟩ : BufTy).Contents (Elt Ideal)) :
    val_main_v13 (F := Ideal) x0 x1
      = sqDist (M := 16384) (N := 4096) (K := 64) (Ideal.ofBits .f32 0x40000000#32) x0 (val_main_v0 (F := Ideal) x1) := by
  funext i
  -- the rows the stages read at (r, p): row r of x, row p of the table
  have e1 : ∀ k : Fin 64, idx_main_v2 (idx_main_v3 (idx_main_v10 i)) k = lhsAt i k := fun k => funext fun a => Fin.ext (by
    match a with
    | ⟨0, _⟩ => rfl
    | ⟨1, _⟩ => rfl)
  have e2 : ∀ k : Fin 64, lidx_main_v7 i k = lhsAt i k := fun k => funext fun a => Fin.ext (by
    match a with
    | ⟨0, _⟩ => rfl
    | ⟨1, _⟩ => rfl)
  have e3 : ∀ k : Fin 64, ridx_main_v7 i k = rhsRowAt i k := fun k => funext fun a => Fin.ext (by
    match a with
    | ⟨0, _⟩ => rfl
    | ⟨1, _⟩ => rfl)
  have e4 : ∀ k : Fin 64, idx_main_v5 (idx_main_v6 (idx_main_v12 i)) k = rhsRowAt i k := fun k => funext fun a => Fin.ext (by
    match a with
    | ⟨0, _⟩ => rfl
    | ⟨1, _⟩ => rfl)
  rw [val_main_v13_apply, val_main_v11_apply, val_main_v10_apply, val_main_v3_apply, val_main_v2_apply,
    val_main_v9_apply, val_main_v8_apply, val_main_v7_apply, val_main_v12_apply, val_main_v6_apply, val_main_v5_apply]
  simp only [val_main_v1_apply, val_main_v4_apply, val_main_cst_apply, val_main_cst_0_apply, val_main_cst_1_apply,
    e1, e2, e3, e4, Ideal.addf_def, Ideal.subf_def, Ideal.mulf_def, Ideal.ofBits_def, Ideal.ofBits_zero_f32, zero_add]
  rfl

end Cert.ReferenceIdeal.RefValue

end
-- ==== Proof.lean ====
/-
  Squared Euclidean distances from each of 16384 points x[b, :] to each of 4096 prototypes W[0, p, :], in 64 dimensions:
      out[b, p] = (∑ₖ x[b,k]² − 2 · ∑ₖ x[b,k]·W[0,p,k]) + ∑ₖ W[0,p,k]².

  The kernel tiles the points into 16 blocks of 1024 rows; at each grid point it loads one block of x and the whole
  prototype table, forms the column of the block's row norms, the row of the table's row norms and the cross term as one
  matrix product contracting the last axis of both, and writes (column − 2 · product) + row to the matching 1024 rows of
  the output. The reference forms the same three pieces over the whole arrays and combines them in the same order.

  Over the extended reals both are the one function `sqDist` (Proof/LibSqDist.lean) of x and the table: every sum is
  a plain finite sum (the product into a zero accumulator, the vector and host reductions from a zero start), and
  the two programs group the three pieces alike, so no law beyond reading each operation at an index is used and the
  precondition is never opened. An entry (b, p) reads row b of x and row p of the table only, hence the block a grid
  point writes is the block of the whole distance matrix (Proof/ArrayDist.lean), and the 16 row blocks cover the output.

  Proof/BodyDist.lean reads the kernel body's stored value at an index; Proof/RefDist.lean reads the reference's stages at
  an index; the frames and the runs the two sides are stated over are the generated modules' (Proof/Gen/). No operation
  of the kernel was rewritten for reading over the extended reals, so that the idealized kernel is the kernel's own text
  and the claim relating the two is trivial.
-/
import proofs.«132592_j54099408060818_2_alg».proof.Defs
import proofs.«132592_j54099408060818_2_alg».proof.Proof.Gen.Kernel
import proofs.«132592_j54099408060818_2_alg».proof.Proof.Gen.Kernel.Frame
import proofs.«132592_j54099408060818_2_alg».proof.Proof.Gen.KernelIdeal
import proofs.«132592_j54099408060818_2_alg».proof.Proof.Gen.KernelIdeal.Frame
import proofs.«132592_j54099408060818_2_alg».proof.Proof.Gen.ReferenceIdeal
import proofs.«132592_j54099408060818_2_alg».proof.Proof.Gen.Pre_finite_inputs
import proofs.«132592_j54099408060818_2_alg».proof.Proof.Gen.KernelIdeal.Value
import proofs.«132592_j54099408060818_2_alg».proof.Proof.Gen.ReferenceIdeal.Run
import proofs.«132592_j54099408060818_2_alg».proof.Proof.Gen.ReferenceIdeal.Read
import proofs.«132592_j54099408060818_2_alg».proof.Proof.ArrayDist
import proofs.«132592_j54099408060818_2_alg».proof.Proof.RefDist

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on x and W the kernel's output array and the reference's result are both the distance
    matrix `sqDist 2 x (W without its unit axis)`. -/
theorem algebraic : Cert.algebraic_KernelIdeal_ReferenceIdeal := by
  intro m ρ m' ρ' _ hagree
  refine ⟨_, Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v13_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
